-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x512 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S8x256x64x1024 : Shape := ⟨4, ![8, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S64x512 : Shape := ⟨2, ![64, 512]⟩
abbrev S1x16x512 : Shape := ⟨3, ![1, 16, 512]⟩
abbrev S16x512 : Shape := ⟨2, ![16, 512]⟩
abbrev S16x1x512 : Shape := ⟨3, ![16, 1, 512]⟩
abbrev S16x64x512 : Shape := ⟨3, ![16, 64, 512]⟩
abbrev S1024x1024 : Shape := ⟨2, ![1024, 1024]⟩
abbrev S16x64x1024 : Shape := ⟨3, ![16, 64, 1024]⟩
abbrev S1x1x1024 : Shape := ⟨3, ![1, 1, 1024]⟩
abbrev S1x16x64x1024 : Shape := ⟨4, ![1, 16, 64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512x1024, .bf16⟩
  | .hbm, ⟨6, _⟩ => ⟨S1x1024, .f32⟩
  | .hbm, ⟨7, _⟩ => ⟨S8x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .bf16⟩
  | .local _ .vmem, ⟨5, _⟩ => ⟨S1x1024, .f32⟩
  | .local _ .vmem, ⟨6, _⟩ => ⟨S1x32x64x1024, .f32⟩
  | .local _ .vmem, ⟨7, _⟩ => ⟨S1x32x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1024 : S1x1024.ShapeCasts S1024
  inb_S1x32x512_S1x16x512_0_0_0 : ∀ a, (![0, 0, 0] : Fin 3 → Nat) a + S1x16x512.size a ≤ S1x32x512.size a
  h_S1x16x512 : 0 < S1x16x512.numel
  shapeCasts_S1x16x512_S16x512 : S1x16x512.ShapeCasts S16x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  shapeCasts_S16x64x512_S1024x512 : S16x64x512.ShapeCasts S1024x512
  shapeCasts_S1024x1024_S16x64x1024 : S1024x1024.ShapeCasts S16x64x1024
  shapeCasts_S1024_S1x1x1024 : S1024.ShapeCasts S1x1x1024
  broadcasts_S1x1x1024_S16x64x1024 : S1x1x1024.Broadcasts S16x64x1024
  inb_S1x32x64x1024_S1x16x64x1024_0_0_0_0 : ∀ a, (![0, 0, 0, 0] : Fin 4 → Nat) a + S1x16x64x1024.size a ≤ S1x32x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  inb_S1x32x512_S1x16x512_0_16_0 : ∀ a, (![0, 16, 0] : Fin 3 → Nat) a + S1x16x512.size a ≤ S1x32x512.size a
  inb_S1x32x64x1024_S1x16x64x1024_0_16_0_0 : ∀ a, (![0, 16, 0, 0] : Fin 4 → Nat) a + S1x16x64x1024.size a ≤ S1x32x64x1024.size a
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S8x256x64x1024.size a
  hwx0_4 : ∀ i : grid0.Coords, EltTy.bits .f32 = 32 ∨ (Rect.block (s := S8x256x64x1024) S1x32x64x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S8x256x1x512, .f32⟩
  | .hbm, ⟨5, _⟩ => ⟨S8x1x64x512, .f32⟩
  | .hbm, ⟨6, _⟩ => ⟨S8x256x64x512, .f32⟩
  | .hbm, ⟨7, _⟩ => ⟨S8x256x64x512, .f32⟩
  | .hbm, ⟨8, _⟩ => ⟨S8x256x64x512, .f32⟩
  | .hbm, ⟨9, _⟩ => ⟨S8x256x64x512, .f32⟩
  | .hbm, ⟨10, _⟩ => ⟨S8x256x64x1024, .f32⟩
  | .hbm, ⟨11, _⟩ => ⟨S1x1x1x1024, .f32⟩
  | .hbm, ⟨12, _⟩ => ⟨S8x256x64x1024, .f32⟩
  | .hbm, ⟨13, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.ChunkLayout.lean ====
/-
  One sixteen-row chunk of the joiner re-lays its operands around the matrix product: unit axes are added
  and dropped, the chunk's encoder rows and the prediction rows are repeated against each other, the pairs
  (encoder row r, prediction row u) are flattened to the 1024 rows of a matrix and unflattened afterwards, and
  the bias row is repeated over all pairs.  Each re-laying, read at an index given by its coordinates, is its
  operand at the evident index; the only arithmetic in it is that the pair (r, u) is matrix row 64 r + u.
  A reshape keeps the row-major position of an entry, and a broadcast reads position 0 on an axis of extent 1.
-/
import Idealize.ShloMosaic.Lib.Pipeline.Value
import Idealize.ShloMosaic.Lib.ValueIdx

noncomputable section

namespace Cert.Joiner

open Idealize.ShloMosaic Idealize.ShloMosaic.ValueIdx

variable {α : Type}

/-- The matrix row of the pair (encoder row `r` of the chunk, prediction row `u`). -/
abbrev pairRow (r : Fin 16) (u : Fin 64) : Fin 1024 :=
  ⟨64 * r.val + u.val, by have := r.isLt; have := u.isLt; omega⟩

/-! ## The encoder rows of the chunk: [1,16,512] → [16,512] → [16,1,512] → [16,64,512] -/

/-- A [1,16,512] slab seen as [16,512]: entry (r, k) is entry (0, r, k). -/
theorem enc_rows (x : (⟨3, ![1, 16, 512]⟩ : Shape).Idx → α)
    (h : (⟨3, ![1, 16, 512]⟩ : Shape).ShapeCasts ⟨2, ![16, 512]⟩) (r : Fin 16) (k : Fin 512) :
    shapeCast ⟨2, ![16, 512]⟩ x h (ix2 r k) = x (ix3 (0 : Fin 1) r k) :=
  shapeCast_apply x h (ix2 r k) (ix3 (0 : Fin 1) r k) (by
    rw [Shape.rowMajor_val_three, Shape.rowMajor_val_two]
    show (0 * 16 + r.val) * 512 + k.val = r.val * 512 + k.val
    omega)

/-- [16,512] seen as [16,1,512]: entry (r, 0, k) is entry (r, k). -/
theorem enc_keepdim (x : (⟨2, ![16, 512]⟩ : Shape).Idx → α)
    (h : (⟨2, ![16, 512]⟩ : Shape).ShapeCasts ⟨3, ![16, 1, 512]⟩) (r : Fin 16) (k : Fin 512) :
    shapeCast ⟨3, ![16, 1, 512]⟩ x h (ix3 r (0 : Fin 1) k) = x (ix2 r k) :=
  shapeCast_apply x h (ix3 r (0 : Fin 1) k) (ix2 r k) (by
    rw [Shape.rowMajor_val_three, Shape.rowMajor_val_two]
    show r.val * 512 + k.val = (r.val * 1 + 0) * 512 + k.val
    omega)

/-- [16,1,512] repeated over the 64 prediction rows: entry (r, u, k) is entry (r, 0, k). -/
theorem enc_repeat (x : (⟨3, ![16, 1, 512]⟩ : Shape).Idx → α)
    (h : (⟨3, ![16, 1, 512]⟩ : Shape).Broadcasts ⟨3, ![16, 64, 512]⟩) (r : Fin 16) (u : Fin 64) (k : Fin 512) :
    broadcastTo ⟨3, ![16, 64, 512]⟩ x h (ix3 r u k) = x (ix3 r (0 : Fin 1) k) :=
  broadcastTo_apply x h (ix3 r u k) (ix3 r (0 : Fin 1) k) (fun a => match a with
    | ⟨0, _⟩ => rfl
    | ⟨1, _⟩ => rfl
    | ⟨2, _⟩ => rfl)

/-! ## The prediction rows: [1,64,512] → [64,512] → [1,64,512] → [16,64,512] -/

/-- A [1,64,512] block seen as [64,512]: entry (u, k) is entry (0, u, k). -/
theorem pred_rows (x : (⟨3, ![1, 64, 512]⟩ : Shape).Idx → α)
    (h : (⟨3, ![1, 64, 512]⟩ : Shape).ShapeCasts ⟨2, ![64, 512]⟩) (u : Fin 64) (k : Fin 512) :
    shapeCast ⟨2, ![64, 512]⟩ x h (ix2 u k) = x (ix3 (0 : Fin 1) u k) :=
  shapeCast_apply x h (ix2 u k) (ix3 (0 : Fin 1) u k) (by
    rw [Shape.rowMajor_val_three, Shape.rowMajor_val_two]
    show (0 * 64 + u.val) * 512 + k.val = u.val * 512 + k.val
    omega)

/-- [64,512] seen as [1,64,512]: entry (0, u, k) is entry (u, k). -/
theorem pred_lead (x : (⟨2, ![64, 512]⟩ : Shape).Idx → α)
    (h : (⟨2, ![64, 512]⟩ : Shape).ShapeCasts ⟨3, ![1, 64, 512]⟩) (u : Fin 64) (k : Fin 512) :
    shapeCast ⟨3, ![1, 64, 512]⟩ x h (ix3 (0 : Fin 1) u k) = x (ix2 u k) :=
  shapeCast_apply x h (ix3 (0 : Fin 1) u k) (ix2 u k) (by
    rw [Shape.rowMajor_val_three, Shape.rowMajor_val_two]
    show u.val * 512 + k.val = (0 * 64 + u.val) * 512 + k.val
    omega)

/-- [1,64,512] repeated over the 16 encoder rows: entry (r, u, k) is entry (0, u, k). -/
theorem pred_repeat (x : (⟨3, ![1, 64, 512]⟩ : Shape).Idx → α)
    (h : (⟨3, ![1, 64, 512]⟩ : Shape).Broadcasts ⟨3, ![16, 64, 512]⟩) (r : Fin 16) (u : Fin 64) (k : Fin 512) :
    broadcastTo ⟨3, ![16, 64, 512]⟩ x h (ix3 r u k) = x (ix3 (0 : Fin 1) u k) :=
  broadcastTo_apply x h (ix3 r u k) (ix3 (0 : Fin 1) u k) (fun a => match a with
    | ⟨0, _⟩ => rfl
    | ⟨1, _⟩ => rfl
    | ⟨2, _⟩ => rfl)

/-! ## Flattening the pairs to matrix rows and back -/

/-- [16,64,512] flattened to [1024,512]: row 64 r + u, column k is entry (r, u, k). -/
theorem pairs_flat (x : (⟨3, ![16, 64, 512]⟩ : Shape).Idx → α)
    (h : (⟨3, ![16, 64, 512]⟩ : Shape).ShapeCasts ⟨2, ![1024, 512]⟩) (r : Fin 16) (u : Fin 64) (k : Fin 512) :
    shapeCast ⟨2, ![1024, 512]⟩ x h (ix2 (pairRow r u) k) = x (ix3 r u k) :=
  shapeCast_apply x h (ix2 (pairRow r u) k) (ix3 r u k) (by
    rw [Shape.rowMajor_val_three, Shape.rowMajor_val_two]
    show (r.val * 64 + u.val) * 512 + k.val = (64 * r.val + u.val) * 512 + k.val
    omega)

/-- [1024,1024] unflattened to [16,64,1024]: entry (r, u, v) is row 64 r + u, column v. -/
theorem pairs_unflat (x : (⟨2, ![1024, 1024]⟩ : Shape).Idx → α)
    (h : (⟨2, ![1024, 1024]⟩ : Shape).ShapeCasts ⟨3, ![16, 64, 1024]⟩) (r : Fin 16) (u : Fin 64) (v : Fin 1024) :
    shapeCast ⟨3, ![16, 64, 1024]⟩ x h (ix3 r u v) = x (ix2 (pairRow r u) v) :=
  shapeCast_apply x h (ix3 r u v) (ix2 (pairRow r u) v) (by
    rw [Shape.rowMajor_val_three, Shape.rowMajor_val_two]
    show (64 * r.val + u.val) * 1024 + v.val = (r.val * 64 + u.val) * 1024 + v.val
    omega)

/-! ## The bias row: [1,1024] → [1024] → [1,1,1024] → [16,64,1024] -/

/-- A [1,1024] row seen as [1024]: entry v is entry (0, v). -/
theorem bias_flat (x : (⟨2, ![1, 1024]⟩ : Shape).Idx → α)
    (h : (⟨2, ![1, 1024]⟩ : Shape).ShapeCasts ⟨1, ![1024]⟩) (v : Fin 1024) :
    shapeCast ⟨1, ![1024]⟩ x h (ix1 v) = x (ix2 (0 : Fin 1) v) :=
  shapeCast_apply x h (ix1 v) (ix2 (0 : Fin 1) v) (by
    rw [Shape.rowMajor_val_two, Shape.rowMajor_val_one]
    show 0 * 1024 + v.val = v.val
    omega)

/-- [1024] seen as [1,1,1024]: entry (0, 0, v) is entry v. -/
theorem bias_lead (x : (⟨1, ![1024]⟩ : Shape).Idx → α)
    (h : (⟨1, ![1024]⟩ : Shape).ShapeCasts ⟨3, ![1, 1, 1024]⟩) (v : Fin 1024) :
    shapeCast ⟨3, ![1, 1, 1024]⟩ x h (ix3 (0 : Fin 1) (0 : Fin 1) v) = x (ix1 v) :=
  shapeCast_apply x h (ix3 (0 : Fin 1) (0 : Fin 1) v) (ix1 v) (by
    rw [Shape.rowMajor_val_three, Shape.rowMajor_val_one]
    show v.val = (0 * 1 + 0) * 1024 + v.val
    omega)

/-- [1,1,1024] repeated over all pairs: entry (r, u, v) is entry (0, 0, v). -/
theorem bias_repeat (x : (⟨3, ![1, 1, 1024]⟩ : Shape).Idx → α)
    (h : (⟨3, ![1, 1, 1024]⟩ : Shape).Broadcasts ⟨3, ![16, 64, 1024]⟩) (r : Fin 16) (u : Fin 64) (v : Fin 1024) :
    broadcastTo ⟨3, ![16, 64, 1024]⟩ x h (ix3 r u v) = x (ix3 (0 : Fin 1) (0 : Fin 1) v) :=
  broadcastTo_apply x h (ix3 r u v) (ix3 (0 : Fin 1) (0 : Fin 1) v) (fun a => match a with
    | ⟨0, _⟩ => rfl
    | ⟨1, _⟩ => rfl
    | ⟨2, _⟩ => rfl)

/-! ## The stored piece: [16,64,1024] → [1,16,64,1024] -/

/-- [16,64,1024] seen as [1,16,64,1024]: entry (0, r, u, v) is entry (r, u, v). -/
theorem piece_lead (x : (⟨3, ![16, 64, 1024]⟩ : Shape).Idx → α)
    (h : (⟨3, ![16, 64, 1024]⟩ : Shape).ShapeCasts ⟨4, ![1, 16, 64, 1024]⟩) (r : Fin 16) (u : Fin 64) (v : Fin 1024) :
    shapeCast ⟨4, ![1, 16, 64, 1024]⟩ x h (ix4 (0 : Fin 1) r u v) = x (ix3 r u v) :=
  shapeCast_apply x h (ix4 (0 : Fin 1) r u v) (ix3 r u v) (by
    rw [Shape.rowMajor_val_three, Shape.rowMajor_val_four]
    show (r.val * 64 + u.val) * 1024 + v.val = ((0 * 16 + r.val) * 64 + u.val) * 1024 + v.val
    omega)

end Cert.Joiner

end
-- ==== Proof.ChunkValue.lean ====
/-
  What one sixteen-row chunk of the kernel's body stores, read at an index.  The body takes the chunk's encoder
  rows e [1,16,512], the prediction block p [1,64,512], the weights w [512,1024] (already transposed, so that
  w[k,v] is the weight of channel k for vocabulary entry v) and the bias row [1,1024]; it forms
  tanh (e[r,k] + p[u,k]) for every pair (r, u), multiplies the resulting [1024,512] matrix by w into a zero
  accumulator, and adds the bias.  So the stored entry (0, r, u, v) is

      ( ∑ over k of tanh (e[0,r,k] + p[0,u,k]) · w[k,v] )  +  bias[0,v].

  The two chunks of a grid point are the same function of their loads: the second was only cut in two by the
  printed program (the product, then the bias and the final reshape).
-/
import proofs.«124888_j6133213299541_2_alg».proof.Proof.Gen.KernelIdeal.Skeleton
import proofs.«124888_j6133213299541_2_alg».proof.Proof.ChunkLayout
import Idealize.ShloMosaic.PureOps.Ideal.Laws
import Idealize.ShloMosaic.Lib.ValueIdx

noncomputable section

namespace Cert.Joiner

open Idealize.ShloMosaic Idealize.ShloMosaic.ValueIdx Cert.KernelIdeal Cert.KernelIdeal.Gen

/-! ## The matrix product at an entry -/

/-- The row coordinate of the left operand's index is the output's row. -/
theorem prod_lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- The column coordinate of the right operand's index is the output's column. -/
theorem prod_rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Entry (p, v) of the product of a [1024,512] matrix with a [512,1024] matrix into the zero accumulator is the sum
    over the 512 contracted positions of the products of the entries. -/
theorem product_entry (a : FVec Ideal S1024x512 .bf16) (w : FVec Ideal S512x1024 .bf16) (p : Fin 1024) (v : Fin 1024) :
    matmul dot_S1024x512_S512x1024_S1024x1024_1_0_0_1_n_n none a w (constant S1024x1024 .f32 0x00000000#32) (ix2 p v)
      = ∑ k : Fin 512, a (ix2 p k) * w (ix2 k v) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p v) ((contrEquiv1 dot_S1024x512_S512x1024_S1024x1024_1_0_0_1_n_n 512 rfl rfl).symm k) = ix2 p k :=
    funext fun a => Fin.ext (by
      match a with
      | ⟨0, _⟩ => exact prod_lhs_row _ _
      | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p v) ((contrEquiv1 dot_S1024x512_S512x1024_S1024x1024_1_0_0_1_n_n 512 rfl rfl).symm k) = ix2 k v :=
    funext fun a => Fin.ext (by
      match a with
      | ⟨0, _⟩ => exact (dot_S1024x512_S512x1024_S1024x1024_1_0_0_1_n_n.rhsIdx_val_of_single rfl _ _).trans hk
      | ⟨1, _⟩ => exact prod_rhs_col _ _)
  rw [el, er]

/-! ## One chunk -/

/-- The chunk's logit for encoder row `r` of the chunk, prediction row `u`, vocabulary entry `v`. -/
def chunkAt (pb : Vec Ideal S1x64x512 .f32) (w : Vec Ideal S512x1024 .bf16) (bb : Vec Ideal S1x1024 .f32)
    (e : Vec Ideal S1x16x512 .f32) (r : Fin 16) (u : Fin 64) (v : Fin 1024) : EReal :=
  (∑ k : Fin 512, Ideal.tanh (e (ix3 (0 : Fin 1) r k) + pb (ix3 (0 : Fin 1) u k)) * w (ix2 k v)) + bb (ix2 (0 : Fin 1) v)

/-- The activation matrix of a chunk at row 64 r + u, column k: tanh of the sum of the encoder and prediction entries. -/
theorem act_entry (pb : Vec Ideal S1x64x512 .f32) (e : Vec Ideal S1x16x512 .f32) (r : Fin 16) (u : Fin 64) (k : Fin 512) :
    (shapeCast S1024x512 (truncf .bf16 (tanh (addf
        (broadcastTo S16x64x512 (shapeCast S16x1x512 (shapeCast S16x512 e shapeCasts_S1x16x512_S16x512) shapeCasts_S16x512_S16x1x512) broadcasts_S16x1x512_S16x64x512)
        (broadcastTo S16x64x512 (shapeCast S1x64x512 (shapeCast S64x512 pb shapeCasts_S1x64x512_S64x512) shapeCasts_S64x512_S1x64x512) broadcasts_S1x64x512_S16x64x512)))
        bitsLt_bf16_f32) shapeCasts_S16x64x512_S1024x512 : FVec Ideal S1024x512 .bf16) (ix2 (pairRow r u) k)
      = Ideal.tanh (e (ix3 (0 : Fin 1) r k) + pb (ix3 (0 : Fin 1) u k)) := by
  rw [pairs_flat]
  show Ideal.tanh (_ + _) = _
  rw [enc_repeat, enc_keepdim, enc_rows, pred_repeat, pred_lead, pred_rows]

/-- The bias of a chunk at (r, u, v) is the bias row's entry v. -/
theorem bias_entry (bb : Vec Ideal S1x1024 .f32) (r : Fin 16) (u : Fin 64) (v : Fin 1024) :
    (broadcastTo S16x64x1024 (shapeCast S1x1x1024 (shapeCast S1024 (shapeCast S1x1024 bb shapeCasts_S1x1024_S1x1024) shapeCasts_S1x1024_S1024) shapeCasts_S1024_S1x1x1024)
        broadcasts_S1x1x1024_S16x64x1024 : FVec Ideal S16x64x1024 .f32) (ix3 r u v)
      = bb (ix2 (0 : Fin 1) v) := by
  rw [bias_repeat, bias_lead, bias_flat, shapeCast_self]

/-- The first chunk's stored payload at (0, r, u, v). -/
theorem first_chunk (v0 : Vec Ideal S1x64x512 .f32) (v2 : Vec Ideal S512x1024 .bf16) (v4 : Vec Ideal S1x1024 .f32)
    (v7 : Vec Ideal S1x16x512 .f32) (r : Fin 16) (u : Fin 64) (v : Fin 1024) :
    k0_pay5 (F := Ideal) v0 v2 v4 v7 (ix4 (0 : Fin 1) r u v) = chunkAt v0 v2 v4 v7 r u v := by
  unfold k0_pay5 k0_pay2 k0_pay3 k0_pay4 chunkAt
  dsimp only
  rw [piece_lead]
  show _ + _ = _
  rw [pairs_unflat, product_entry, bias_entry, shapeCast_self]
  exact congrArg (· + v4 (ix2 (0 : Fin 1) v)) (Finset.sum_congr rfl fun k _ => by rw [act_entry])

/-- The second chunk's stored payload at (0, r, u, v): the same function of its loads. -/
theorem second_chunk (v0 : Vec Ideal S1x64x512 .f32) (v2 : Vec Ideal S512x1024 .bf16) (v4 : Vec Ideal S1x1024 .f32)
    (v25 : Vec Ideal S1x16x512 .f32) (r : Fin 16) (u : Fin 64) (v : Fin 1024) :
    k0_pay1 (F := Ideal) (k0_pay6 v0 v2 v25) (k0_pay7 v4) (ix4 (0 : Fin 1) r u v) = chunkAt v0 v2 v4 v25 r u v := by
  unfold k0_pay1 k0_pay6 k0_pay7 k0_pay2 k0_pay3 k0_pay4 chunkAt
  dsimp only
  rw [piece_lead]
  show _ + _ = _
  rw [pairs_unflat, product_entry, bias_entry, shapeCast_self]
  exact congrArg (· + v4 (ix2 (0 : Fin 1) v)) (Finset.sum_congr rfl fun k _ => by rw [act_entry])

end Cert.Joiner

end
-- ==== Proof.BlockValue.lean ====
/-
  What the body leaves in the output block of one grid point.  The block has 32 encoder rows; the body writes
  rows 0–15 from the first sixteen rows of the encoder block and rows 16–31 from the last sixteen, each as one
  chunk.  Both stores are restrictions of ONE function of the four input blocks: entry (0, R, u, v) is

      ( ∑ over k of tanh (x0[0,R,k] + x1[0,u,k]) · x2[k,v] )  +  x3[0,v],

  with x0 the encoder block, x1 the prediction block, x2 the weights and x3 the bias row.  The two stores
  cover the block, so the block after the body is that function.
-/
import proofs.«124888_j6133213299541_2_alg».proof.Proof.Gen.KernelIdeal.Frame
import proofs.«124888_j6133213299541_2_alg».proof.Proof.ChunkValue
import Idealize.ShloMosaic.Lib.Pipeline.Value

noncomputable section

namespace Cert.Joiner

open Idealize.ShloMosaic Idealize.ShloMosaic.ValueIdx Cert.KernelIdeal Cert.KernelIdeal.Gen

/-- Row `r` of the first chunk is row r of the block; -/
abbrev lo (r : Fin 16) : Fin 32 := ⟨r.val, by have := r.isLt; omega⟩
/-- row `r` of the second chunk is row 16 + r. -/
abbrev hi (r : Fin 16) : Fin 32 := ⟨16 + r.val, by have := r.isLt; omega⟩

/-- The block's entry for encoder row `R` of the block, prediction row `u`, vocabulary entry `v`. -/
def blockAt (x0 : Vec Ideal S1x32x512 .f32) (x1 : Vec Ideal S1x64x512 .f32) (x2 : Vec Ideal S512x1024 .bf16)
    (x3 : Vec Ideal S1x1024 .f32) (R : Fin 32) (u : Fin 64) (v : Fin 1024) : EReal :=
  (∑ k : Fin 512, Ideal.tanh (x0 (ix3 (0 : Fin 1) R k) + x1 (ix3 (0 : Fin 1) u k)) * x2 (ix2 k v)) + x3 (ix2 (0 : Fin 1) v)

/-- The whole [1,32,64,1024] block. -/
def block (x0 : Vec Ideal S1x32x512 .f32) (x1 : Vec Ideal S1x64x512 .f32) (x2 : Vec Ideal S512x1024 .bf16)
    (x3 : Vec Ideal S1x1024 .f32) : Vec Ideal S1x32x64x1024 .f32 :=
  fun y => blockAt x0 x1 x2 x3 ⟨(y 1).val, (y 1).isLt⟩ ⟨(y 2).val, (y 2).isLt⟩ ⟨(y 3).val, (y 3).isLt⟩

/-- The block at an index whose coordinates are known. -/
theorem block_of_coords (x0 : Vec Ideal S1x32x512 .f32) (x1 : Vec Ideal S1x64x512 .f32) (x2 : Vec Ideal S512x1024 .bf16)
    (x3 : Vec Ideal S1x1024 .f32) (y : S1x32x64x1024.Idx) (R : Fin 32) (u : Fin 64) (v : Fin 1024)
    (h1 : (y 1).val = R.val) (h2 : (y 2).val = u.val) (h3 : (y 3).val = v.val) :
    block x0 x1 x2 x3 y = blockAt x0 x1 x2 x3 R u v := by
  have e1 : (⟨(y 1).val, (y 1).isLt⟩ : Fin 32) = R := Fin.ext h1
  have e2 : (⟨(y 2).val, (y 2).isLt⟩ : Fin 64) = u := Fin.ext h2
  have e3 : (⟨(y 3).val, (y 3).isLt⟩ : Fin 1024) = v := Fin.ext h3
  unfold block
  rw [e1, e2, e3]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The first chunk's encoder rows are rows 0–15 of the encoder block. -/
theorem enc_lo (x0 : Vec Ideal S1x32x512 .f32) (r : Fin 16) (k : Fin 512) :
    View.ld x0 r0_3 (ix3 (0 : Fin 1) r k) = x0 (ix3 (0 : Fin 1) (lo r) k) :=
  congrArg x0 (funext fun a => Fin.ext (by
    match a with
    | ⟨0, _⟩ => rfl
    | ⟨1, _⟩ => show 0 + 1 * r.val = r.val; omega
    | ⟨2, _⟩ => show 0 + 1 * k.val = k.val; omega))

/-- The second chunk's encoder rows are rows 16–31. -/
theorem enc_hi (x0 : Vec Ideal S1x32x512 .f32) (r : Fin 16) (k : Fin 512) :
    View.ld x0 r0_5 (ix3 (0 : Fin 1) r k) = x0 (ix3 (0 : Fin 1) (hi r) k) :=
  congrArg x0 (funext fun a => Fin.ext (by
    match a with
    | ⟨0, _⟩ => rfl
    | ⟨1, _⟩ => show 16 + 1 * r.val = 16 + r.val; omega
    | ⟨2, _⟩ => show 0 + 1 * k.val = k.val; omega))

/-- The first store's payload is the block's function on rows 0–15. -/
theorem first_piece (x0 : Vec Ideal S1x32x512 .f32) (x1 : Vec Ideal S1x64x512 .f32) (x2 : Vec Ideal S512x1024 .bf16)
    (x3 : Vec Ideal S1x1024 .f32) (x : r0_4.shape.Idx) :
    k0_pay5 (F := Ideal) (View.ld x1 r0_0) (View.ld x2 r0_1) (View.ld x3 r0_2) (View.ld x0 r0_3) x
      = block x0 x1 x2 x3 (r0_4.emb x) := by
  obtain ⟨z, r, u, v, rfl⟩ : ∃ (z : Fin 1) (r : Fin 16) (u : Fin 64) (v : Fin 1024), x = ix4 z r u v :=
    ⟨x 0, x 1, x 2, x 3, eq_ix4 x⟩
  obtain rfl : z = 0 := Subsingleton.elim _ _
  rw [first_chunk, block_of_coords x0 x1 x2 x3 _ (lo r) u v
    (by show 0 + 1 * r.val = r.val; omega) (by show 0 + 1 * u.val = u.val; omega) (by show 0 + 1 * v.val = v.val; omega)]
  simp only [View.ld_unit_zero (S := S1x64x512) zeros3, View.ld_unit_zero (S := S512x1024) zeros2,
    View.ld_unit_zero (S := S1x1024) zeros2]
  unfold chunkAt blockAt
  exact congrArg (· + x3 (ix2 (0 : Fin 1) v)) (Finset.sum_congr rfl fun k _ => by rw [enc_lo])

/-- The second store's payload is the block's function on rows 16–31. -/
theorem second_piece (x0 : Vec Ideal S1x32x512 .f32) (x1 : Vec Ideal S1x64x512 .f32) (x2 : Vec Ideal S512x1024 .bf16)
    (x3 : Vec Ideal S1x1024 .f32) (x : r0_6.shape.Idx) :
    k0_pay1 (F := Ideal) (k0_pay6 (View.ld x1 r0_0) (View.ld x2 r0_1) (View.ld x0 r0_5)) (k0_pay7 (View.ld x3 r0_2)) x
      = block x0 x1 x2 x3 (r0_6.emb x) := by
  obtain ⟨z, r, u, v, rfl⟩ : ∃ (z : Fin 1) (r : Fin 16) (u : Fin 64) (v : Fin 1024), x = ix4 z r u v :=
    ⟨x 0, x 1, x 2, x 3, eq_ix4 x⟩
  obtain rfl : z = 0 := Subsingleton.elim _ _
  rw [second_chunk, block_of_coords x0 x1 x2 x3 _ (hi r) u v
    (by show 16 + 1 * r.val = 16 + r.val; omega) (by show 0 + 1 * u.val = u.val; omega) (by show 0 + 1 * v.val = v.val; omega)]
  simp only [View.ld_unit_zero (S := S1x64x512) zeros3, View.ld_unit_zero (S := S512x1024) zeros2,
    View.ld_unit_zero (S := S1x1024) zeros2]
  unfold chunkAt blockAt
  exact congrArg (· + x3 (ix2 (0 : Fin 1) v)) (Finset.sum_congr rfl fun k _ => by rw [enc_hi])

/-- After the body the output block is `block` of the four input blocks: each store is a restriction of it, and the two
    stores cover the block. -/
theorem out_is_block (x0 : Vec Ideal S1x32x512 .f32) (x1 : Vec Ideal S1x64x512 .f32) (x2 : Vec Ideal S512x1024 .bf16)
    (x3 : Vec Ideal S1x1024 .f32) : out0_4 (F := Ideal) x0 x1 x2 x3 = block x0 x1 x2 x3 := by
  funext y
  unfold out0_4
  refine View.canon_apply_of_pieces (block x0 x1 x2 x3) _ ?_ y (cover0_4 _ _ y)
  intro p hp
  rcases List.mem_cons.mp hp with rfl | hp
  · exact second_piece x0 x1 x2 x3
  · rcases List.mem_cons.mp hp with rfl | hp
    · exact first_piece x0 x1 x2 x3
    · exact absurd hp List.not_mem_nil

end Cert.Joiner

end
-- ==== Proof.JoinerSpec.lean ====
/-
  The transducer joiner, as one function of its four argument arrays.  For batch entry n, encoder frame t,
  prediction step u and vocabulary entry v the logit is

      ( ∑ over the 512 channels k of  tanh (enc[n,t,k] + pred[n,u,k]) · W[v,k] )  +  b[v]

  on the extended reals: the hyperbolic tangent is the extended one (-1 and 1 at the infinities), the sum runs
  over the channels in their order, and the bias is added last.  Both programs of this certificate compute
  exactly this expression, entry by entry; no law of arithmetic beyond reading the two programs is used.
-/
import Idealize.ShloMosaic.PureOps.Ideal
import Idealize.ShloMosaic.Lib.ValueIdx

noncomputable section

namespace Cert.Joiner

open Idealize.ShloMosaic Idealize.ShloMosaic.ValueIdx

/-- The logit at (n, t, u, v). -/
def logit (enc : (⟨3, ![8, 256, 512]⟩ : Shape).Idx → EReal) (pred : (⟨3, ![8, 64, 512]⟩ : Shape).Idx → EReal)
    (W : (⟨2, ![1024, 512]⟩ : Shape).Idx → EReal) (b : (⟨1, ![1024]⟩ : Shape).Idx → EReal)
    (n : Fin 8) (t : Fin 256) (u : Fin 64) (v : Fin 1024) : EReal :=
  (∑ k : Fin 512, Ideal.tanh (enc (ix3 n t k) + pred (ix3 n u k)) * W (ix2 v k)) + b (ix1 v)

/-- The whole [8,256,64,1024] array of logits. -/
def joiner (enc : (⟨3, ![8, 256, 512]⟩ : Shape).Idx → EReal) (pred : (⟨3, ![8, 64, 512]⟩ : Shape).Idx → EReal)
    (W : (⟨2, ![1024, 512]⟩ : Shape).Idx → EReal) (b : (⟨1, ![1024]⟩ : Shape).Idx → EReal) :
    (⟨4, ![8, 256, 64, 1024]⟩ : Shape).Idx → EReal :=
  fun i => logit enc pred W b ⟨(i 0).val, (i 0).isLt⟩ ⟨(i 1).val, (i 1).isLt⟩ ⟨(i 2).val, (i 2).isLt⟩ ⟨(i 3).val, (i 3).isLt⟩

/-- At an index given by its coordinates. -/
theorem joiner_apply (enc : (⟨3, ![8, 256, 512]⟩ : Shape).Idx → EReal) (pred : (⟨3, ![8, 64, 512]⟩ : Shape).Idx → EReal)
    (W : (⟨2, ![1024, 512]⟩ : Shape).Idx → EReal) (b : (⟨1, ![1024]⟩ : Shape).Idx → EReal)
    (n : Fin 8) (t : Fin 256) (u : Fin 64) (v : Fin 1024) :
    joiner enc pred W b (ix4 n t u v) = logit enc pred W b n t u v := rfl

/-- At an index whose coordinates are known. -/
theorem joiner_of_coords (enc : (⟨3, ![8, 256, 512]⟩ : Shape).Idx → EReal) (pred : (⟨3, ![8, 64, 512]⟩ : Shape).Idx → EReal)
    (W : (⟨2, ![1024, 512]⟩ : Shape).Idx → EReal) (b : (⟨1, ![1024]⟩ : Shape).Idx → EReal)
    (i : (⟨4, ![8, 256, 64, 1024]⟩ : Shape).Idx) (n : Fin 8) (t : Fin 256) (u : Fin 64) (v : Fin 1024)
    (h0 : (i 0).val = n.val) (h1 : (i 1).val = t.val) (h2 : (i 2).val = u.val) (h3 : (i 3).val = v.val) :
    joiner enc pred W b i = logit enc pred W b n t u v := by
  have e0 : (⟨(i 0).val, (i 0).isLt⟩ : Fin 8) = n := Fin.ext h0
  have e1 : (⟨(i 1).val, (i 1).isLt⟩ : Fin 256) = t := Fin.ext h1
  have e2 : (⟨(i 2).val, (i 2).isLt⟩ : Fin 64) = u := Fin.ext h2
  have e3 : (⟨(i 3).val, (i 3).isLt⟩ : Fin 1024) = v := Fin.ext h3
  unfold joiner
  rw [e0, e1, e2, e3]

end Cert.Joiner

end
-- ==== Proof.BlocksToArray.lean ====
/-
  From the blocks to the whole result array.  The grid has 8 × 8 points; point (n, i) works on batch entry n and
  encoder frames 32 i … 32 i + 31.  Its encoder block is rows 32 i … of enc[n], its prediction block is all of
  pred[n], the weights block is the whole transposed weight matrix (so its entry (k, v) is W[v,k]; the change of
  float format on the way is the identity on the extended reals), and the bias block is the bias as one row.
  Reading the block function of `BlockValue` through these blocks gives, at the block's entry (0, R, u, v), the
  joiner's logit at (n, 32 i + R, u, v): what the point writes back is its block of the joiner.  Every index
  (n, t, u, v) lies in the block of the point (n, t / 32), so the array after the run is the joiner of the
  argument arrays as launched.
-/
import proofs.«124888_j6133213299541_2_alg».proof.Proof.Gen.KernelIdeal.Value
import proofs.«124888_j6133213299541_2_alg».proof.Proof.BlockValue
import proofs.«124888_j6133213299541_2_alg».proof.Proof.JoinerSpec
import Idealize.ShloMosaic.Lib.StableHlo.Run
import Idealize.ShloMosaic.Lib.Pipeline.Value

noncomputable section

namespace Cert.Joiner

open Idealize.ShloMosaic Idealize.ShloMosaic.ValueIdx

variable {α : Type}

/-- The transposed weights at (k, v) are the weights at (v, k). -/
theorem weights_transposed (W : (⟨2, ![1024, 512]⟩ : Shape).Idx → α)
    (h : (⟨2, ![1024, 512]⟩ : Shape).Transposes [1, 0] ⟨2, ![512, 1024]⟩) (k : Fin 512) (v : Fin 1024) :
    transpose ⟨2, ![512, 1024]⟩ [1, 0] W h (ix2 k v) = W (ix2 v k) :=
  transpose_apply [1, 0] W h (ix2 k v) (ix2 v k) (fun b => match b with
    | ⟨0, _⟩ => rfl
    | ⟨1, _⟩ => rfl)

/-- The bias as a [1,1024] row: entry (0, v) is entry v. -/
theorem bias_as_row (b : (⟨1, ![1024]⟩ : Shape).Idx → α)
    (h : (⟨1, ![1024]⟩ : Shape).ShapeCasts ⟨2, ![1, 1024]⟩) (v : Fin 1024) :
    shapeCast ⟨2, ![1, 1024]⟩ b h (ix2 (0 : Fin 1) v) = b (ix1 v) :=
  shapeCast_apply b h (ix2 (0 : Fin 1) v) (ix1 v) (by
    rw [Shape.rowMajor_val_two, Shape.rowMajor_val_one]
    show v.val = 0 * 1024 + v.val
    omega)

end Cert.Joiner

namespace Cert.KernelIdeal.JoinerValue

open Cert.KernelIdeal Cert.KernelIdeal.Gen Cert.Joiner Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result array: the joiner of the four argument arrays as launched. -/
abbrev result (c : Dev nD) : S8x256x64x1024.Idx → EReal :=
  joiner (m ((c : Thread nD τ).loc main_arg0)) (m ((c : Thread nD τ).loc main_arg1))
    (m ((c : Thread nD τ).loc main_arg2)) (m ((c : Thread nD τ).loc main_arg3))

/-! ## The arrays the host operations wrote before the region -/

/-- The weights array the region finds: the transpose of W, its format changed. -/
theorem V_weights (c : Dev nD) :
    @Eq (S512x1024.Idx → EReal) (V m c main_v1)
      (truncf (F := Ideal) .bf16 (transpose S512x1024 [1, 0] (m ((c : Thread nD τ).loc main_arg2)) transposes_S1024x512_S512x1024_1_0) bitsLt_bf16_f32) := by
  dsimp only [Gen.V, Gen.hostOps0]
  after_results

/-- The bias array the region finds: b as one row. -/
theorem V_bias (c : Dev nD) :
    @Eq (S1x1024.Idx → EReal) (V m c main_v2)
      (shapeCast S1x1024 (m ((c : Thread nD τ).loc main_arg3)) shapeCasts_S1024_S1x1024) := by
  dsimp only [Gen.V, Gen.hostOps0]
  after_results
  rfl

/-! ## The index maps, decided over the 64 grid points -/

/-- The encoder window moves with the output on the batch and frame axes, the prediction window on the batch axis;
    the weights and the bias stay put; the output's block indices are (n, i, 0, 0) with n, i ≤ 7. -/
theorem index_maps : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) ≤ 7 ∧ win0_4.index t (1 : Fin 4) ≤ 7
    ∧ win0_4.index t (2 : Fin 4) = 0 ∧ win0_4.index t (3 : Fin 4) = 0 :=
  (by decide +kernel : ∀ t : Fin grid0.N, _)

/-- Every pair (n, i) is some point's. -/
theorem every_block : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-! ## The four input blocks at a point, read off the argument arrays -/

/-- The encoder block at (0, R, k) is enc at (n, T, k), where n is the block's batch index and T = 32 · (frame index) + R. -/
theorem enc_block (c : Dev nD) (t : Fin cfg0.N) (R : Fin 32) (k : Fin 512) (n : Fin 8) (T : Fin 256)
    (hn : win0_0.index t (0 : Fin 3) = n.val) (hT : win0_0.index t (1 : Fin 3) * 32 + R.val = T.val)
    (h2 : win0_0.index t (2 : Fin 3) = 0) :
    iblk m c 0 t (ix3 (0 : Fin 1) R k) = m ((c : Thread nD τ).loc main_arg0) (ix3 n T k) := by
  show V m c main_arg0 (((cfg0.win 0).blk t).view.emb (ix3 (0 : Fin 1) R k)) = _
  rw [V_main_arg0]
  refine congrArg _ (funext fun a => Fin.ext ?_)
  match a with
  | ⟨0, _⟩ => show win0_0.index t (0 : Fin 3) * 1 + 1 * 0 = n.val; omega
  | ⟨1, _⟩ => show win0_0.index t (1 : Fin 3) * 32 + 1 * R.val = T.val; omega
  | ⟨2, _⟩ => show win0_0.index t (2 : Fin 3) * 512 + 1 * k.val = k.val; omega

/-- The prediction block at (0, u, k) is pred at (n, u, k). -/
theorem pred_block (c : Dev nD) (t : Fin cfg0.N) (u : Fin 64) (k : Fin 512) (n : Fin 8)
    (hn : win0_1.index t (0 : Fin 3) = n.val) (h1 : win0_1.index t (1 : Fin 3) = 0) (h2 : win0_1.index t (2 : Fin 3) = 0) :
    iblk m c 1 t (ix3 (0 : Fin 1) u k) = m ((c : Thread nD τ).loc main_arg1) (ix3 n u k) := by
  show V m c main_arg1 (((cfg0.win 1).blk t).view.emb (ix3 (0 : Fin 1) u k)) = _
  rw [V_main_arg1]
  refine congrArg _ (funext fun a => Fin.ext ?_)
  match a with
  | ⟨0, _⟩ => show win0_1.index t (0 : Fin 3) * 1 + 1 * 0 = n.val; omega
  | ⟨1, _⟩ => show win0_1.index t (1 : Fin 3) * 64 + 1 * u.val = u.val; omega
  | ⟨2, _⟩ => show win0_1.index t (2 : Fin 3) * 512 + 1 * k.val = k.val; omega

/-- The weights block at (k, v) is W at (v, k). -/
theorem weights_block (c : Dev nD) (t : Fin cfg0.N) (k : Fin 512) (v : Fin 1024)
    (h0 : win0_2.index t (0 : Fin 2) = 0) (h1 : win0_2.index t (1 : Fin 2) = 0) :
    iblk m c 2 t (ix2 k v) = m ((c : Thread nD τ).loc main_arg2) (ix2 v k) := by
  have e : ((cfg0.win 2).blk t).view.emb (ix2 k v) = ix2 k v := funext fun a => Fin.ext (by
    match a with
    | ⟨0, _⟩ => show win0_2.index t (0 : Fin 2) * 512 + 1 * k.val = k.val; omega
    | ⟨1, _⟩ => show win0_2.index t (1 : Fin 2) * 1024 + 1 * v.val = v.val; omega)
  show (V m c main_v1 : S512x1024.Idx → EReal) (((cfg0.win 2).blk t).view.emb (ix2 k v)) = _
  rw [e, V_weights]
  exact weights_transposed _ _ k v

/-- The bias block at (0, v) is b at v. -/
theorem bias_block (c : Dev nD) (t : Fin cfg0.N) (v : Fin 1024)
    (h0 : win0_3.index t (0 : Fin 2) = 0) (h1 : win0_3.index t (1 : Fin 2) = 0) :
    iblk m c 3 t (ix2 (0 : Fin 1) v) = m ((c : Thread nD τ).loc main_arg3) (ix1 v) := by
  have e : ((cfg0.win 3).blk t).view.emb (ix2 (0 : Fin 1) v) = ix2 (0 : Fin 1) v := funext fun a => Fin.ext (by
    match a with
    | ⟨0, _⟩ => show win0_3.index t (0 : Fin 2) * 1 + 1 * 0 = 0; omega
    | ⟨1, _⟩ => show win0_3.index t (1 : Fin 2) * 1024 + 1 * v.val = v.val; omega)
  show (V m c main_v2 : S1x1024.Idx → EReal) (((cfg0.win 3).blk t).view.emb (ix2 (0 : Fin 1) v)) = _
  rw [e, V_bias]
  exact bias_as_row _ _ v

/-! ## What a point writes back -/

/-- What point `t` writes back is its block of the joiner of the argument arrays. -/
theorem flushed_eq (c : Dev nD) (t : Fin cfg0.N) :
    (dats m 0 c).flushed 4 t = ((cfg0.win 4).blk t).view.read (Elt Ideal) (result m c) := by
  rw [Value.flushed4, out_is_block (iblk m c 0 t) (iblk m c 1 t) (iblk m c 2 t) (iblk m c 3 t)]
  obtain ⟨a0, a1, a2, b0, b1, b2, w0, w1, s0, s1, o0, o1, o2, o3⟩ := index_maps t
  funext j
  show block (iblk m c 0 t) (iblk m c 1 t) (iblk m c 2 t) (iblk m c 3 t) j
    = joiner (m ((c : Thread nD τ).loc main_arg0)) (m ((c : Thread nD τ).loc main_arg1))
        (m ((c : Thread nD τ).loc main_arg2)) (m ((c : Thread nD τ).loc main_arg3)) (((cfg0.win 4).blk t).view.emb j)
  have hz : (j 0).val < 1 := (j 0).isLt
  have hR : (j 1).val < 32 := (j 1).isLt
  have hu : (j 2).val < 64 := (j 2).isLt
  have hv : (j 3).val < 1024 := (j 3).isLt
  rw [block_of_coords (iblk m c 0 t) (iblk m c 1 t) (iblk m c 2 t) (iblk m c 3 t) j
      ⟨(j 1).val, hR⟩ ⟨(j 2).val, hu⟩ ⟨(j 3).val, hv⟩ rfl rfl rfl,
    joiner_of_coords _ _ _ _ (((cfg0.win 4).blk t).view.emb j)
      ⟨win0_4.index t (0 : Fin 4), by omega⟩ ⟨win0_4.index t (1 : Fin 4) * 32 + (j 1).val, by omega⟩
      ⟨(j 2).val, hu⟩ ⟨(j 3).val, hv⟩
      (by show win0_4.index t (0 : Fin 4) * 1 + 1 * (j 0).val = win0_4.index t (0 : Fin 4); omega)
      (by show win0_4.index t (1 : Fin 4) * 32 + 1 * (j 1).val = win0_4.index t (1 : Fin 4) * 32 + (j 1).val; omega)
      (by show win0_4.index t (2 : Fin 4) * 64 + 1 * (j 2).val = (j 2).val; omega)
      (by show win0_4.index t (3 : Fin 4) * 1024 + 1 * (j 3).val = (j 3).val; omega)]
  unfold blockAt logit
  rw [bias_block m c t ⟨(j 3).val, hv⟩ s0 s1]
  refine congrArg (· + _) (Finset.sum_congr rfl fun k _ => ?_)
  rw [enc_block m c t ⟨(j 1).val, hR⟩ k ⟨win0_4.index t (0 : Fin 4), by omega⟩
      ⟨win0_4.index t (1 : Fin 4) * 32 + (j 1).val, by omega⟩ a0 (by show win0_0.index t (1 : Fin 3) * 32 + (j 1).val = _; rw [a1]) a2,
    pred_block m c t ⟨(j 2).val, hu⟩ k ⟨win0_4.index t (0 : Fin 4), by omega⟩ b0 b1 b2,
    weights_block m c t k ⟨(j 3).val, hv⟩ w0 w1]

/-! ## The blocks cover the array -/

/-- An index is in point `t`'s block iff each coordinate is in the block's range on its axis. -/
theorem mem_blk (t : Fin cfg0.N) (i : S8x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v3).slice (win0_4.rect t)).set ↔ _
  rw [View.set_slice_whole, Rect.mem_set_unit]
  exact Iff.rfl

/-- Index (n, t, u, v) lies in the block of the point (n, t / 32). -/
theorem cover (i : S8x256x64x1024.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := every_block ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-! ## The array after the run, and the run -/

/-- After the run the result array is the joiner of the argument arrays. -/
theorem final (c : Dev nD) : (dats m 0 c).arrAt 4 cfg0.N = result m c :=
  (dats m 0 c).arrAt_eq_of_cover 4 (result m c) (fun t _ => flushed_eq m c t) cover

/-- Every weakly fair execution of the kernel's program terminates with the result array at the joiner of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.JoinerValue

end
-- ==== Proof.RefIsJoiner.lean ====
/-
  The reference program computes the joiner's logits.  Its ten host operations repeat the encoder array over
  the prediction steps and the prediction array over the encoder frames, add them, apply tanh, contract the
  channel axis against the weight matrix W[v,k], and add the bias repeated over (n, t, u).  Read at the index
  (n, t, u, v), each repetition reads its operand at the coordinates it keeps, so the result there is

      ( ∑ over k of tanh (enc[n,t,k] + pred[n,u,k]) · W[v,k] )  +  b[v],

  the specification's expression.
-/
import proofs.«124888_j6133213299541_2_alg».proof.Proof.Gen.ReferenceIdeal.Read
import proofs.«124888_j6133213299541_2_alg».proof.Proof.JoinerSpec

noncomputable section

namespace Cert.Joiner

open Idealize.ShloMosaic Idealize.ShloMosaic.ValueIdx Cert.ReferenceIdeal Cert.ReferenceIdeal.Read

/-- The last stage of the reference, as a function of the four arguments, is the joiner. -/
theorem reference_is_joiner (x0 : (⟨S8x256x512, .f32⟩ : BufTy).Contents (Elt Ideal))
    (x1 : (⟨S8x64x512, .f32⟩ : BufTy).Contents (Elt Ideal)) (x2 : (⟨S1024x512, .f32⟩ : BufTy).Contents (Elt Ideal))
    (x3 : (⟨S1024, .f32⟩ : BufTy).Contents (Elt Ideal)) :
    val_main_v9 (F := Ideal) x0 x1 x2 x3 = joiner x0 x1 x2 x3 := by
  funext i
  obtain ⟨n, t, u, v, rfl⟩ : ∃ (n : Fin 8) (t : Fin 256) (u : Fin 64) (v : Fin 1024), i = ix4 n t u v :=
    ⟨i 0, i 1, i 2, i 3, eq_ix4 i⟩
  -- the encoder entry the two repetitions read for channel k
  have e0 : ∀ k : Fin 512, idx_main_v0 (idx_main_v2 (lidx_main_v6 (ix4 n t u v) k)) = ix3 n t k := fun k =>
    funext fun a => Fin.ext (by match a with | ⟨0, _⟩ => rfl | ⟨1, _⟩ => rfl | ⟨2, _⟩ => rfl)
  -- the prediction entry
  have e1 : ∀ k : Fin 512, idx_main_v1 (idx_main_v3 (lidx_main_v6 (ix4 n t u v) k)) = ix3 n u k := fun k =>
    funext fun a => Fin.ext (by match a with | ⟨0, _⟩ => rfl | ⟨1, _⟩ => rfl | ⟨2, _⟩ => rfl)
  -- the weight entry
  have e2 : ∀ k : Fin 512, ridx_main_v6 (ix4 n t u v) k = ix2 v k := fun k =>
    funext fun a => Fin.ext (by match a with | ⟨0, _⟩ => rfl | ⟨1, _⟩ => rfl)
  -- the bias entry
  have e3 : idx_main_v7 (idx_main_v8 (ix4 n t u v)) = ix1 v :=
    funext fun a => Fin.ext (by match a with | ⟨0, _⟩ => rfl)
  rw [val_main_v9_apply, val_main_v6_apply, val_main_v8_apply, val_main_v7_apply, joiner_apply]
  unfold logit
  simp only [val_main_v5_apply, val_main_v4_apply, val_main_v2_apply, val_main_v3_apply, val_main_v0_apply,
    val_main_v1_apply, e0, e1, e2, e3]
  rfl

end Cert.Joiner

end
-- ==== Proof.lean ====
/-
  The transducer joiner kernel against its jnp reference, over the extended reals.

  Both programs compute, for batch entry n, encoder frame t, prediction step u and vocabulary entry v,

      ( ∑ over the 512 channels k of  tanh (enc[n,t,k] + pred[n,u,k]) · W[v,k] )  +  b[v]

  (Proof/JoinerSpec.lean).  The kernel does it on a grid of 8 × 8 points, each handling one batch entry and 32
  encoder frames in two chunks of 16: a chunk forms the tanh activations of all 16 × 64 pairs (frame, step),
  multiplies them as a [1024,512] matrix with the transposed weights into a zero accumulator, and adds the bias.
  On the extended reals the roundings to bfloat16 before the product are the identity, the product into a zero
  accumulator is the plain sum over the channels, and the kernel's tanh and the reference's are one function.
  The channels are summed in the same order and the factors multiplied in the same order on both sides, so the
  two results agree term by term: no law of arithmetic is used, and in particular none that needs finite inputs.

  Proof/ChunkLayout.lean, Proof/ChunkValue.lean: what one chunk stores, at an index.  Proof/BlockValue.lean: the
  output block of a grid point as one function of its four input blocks.  Proof/BlocksToArray.lean: the blocks read
  off the argument arrays, what a point writes back, the cover of the array by the blocks, and the kernel's run.
  Proof/RefIsJoiner.lean: the reference's ten operations read at an index.  Each program's frame is its run with
  the results dropped, and the idealization rewrote nothing, so the kernel's idealization is the kernel's own text.
-/
import proofs.«124888_j6133213299541_2_alg».proof.Defs
import proofs.«124888_j6133213299541_2_alg».proof.Proof.Gen.Kernel
import proofs.«124888_j6133213299541_2_alg».proof.Proof.Gen.Kernel.Skeleton
import proofs.«124888_j6133213299541_2_alg».proof.Proof.Gen.Kernel.Launch
import proofs.«124888_j6133213299541_2_alg».proof.Proof.Gen.Kernel.Points
import proofs.«124888_j6133213299541_2_alg».proof.Proof.Gen.Kernel.Frame
import proofs.«124888_j6133213299541_2_alg».proof.Proof.Gen.KernelIdeal
import proofs.«124888_j6133213299541_2_alg».proof.Proof.Gen.KernelIdeal.Skeleton
import proofs.«124888_j6133213299541_2_alg».proof.Proof.Gen.KernelIdeal.Launch
import proofs.«124888_j6133213299541_2_alg».proof.Proof.Gen.KernelIdeal.Points
import proofs.«124888_j6133213299541_2_alg».proof.Proof.Gen.KernelIdeal.Frame
import proofs.«124888_j6133213299541_2_alg».proof.Proof.Gen.ReferenceIdeal
import proofs.«124888_j6133213299541_2_alg».proof.Proof.Gen.KernelIdeal.Value
import proofs.«124888_j6133213299541_2_alg».proof.Proof.Gen.ReferenceIdeal.Run
import proofs.«124888_j6133213299541_2_alg».proof.Proof.Gen.ReferenceIdeal.Read
import proofs.«124888_j6133213299541_2_alg».proof.Proof.Gen.Pre_finite_inputs
import Idealize.ShloMosaic.Adequacy
import Idealize.ShloMosaic.Init
import proofs.«124888_j6133213299541_2_alg».proof.Proof.BlocksToArray
import proofs.«124888_j6133213299541_2_alg».proof.Proof.RefIsJoiner

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the joiner of those arguments in their
    result array: the kernel's by its run, the reference's by its run read at an index. -/
theorem algebraic : Cert.algebraic_KernelIdeal_ReferenceIdeal := by
  intro m ρ m' ρ' _ hagree
  refine ⟨fun c => Cert.KernelIdeal.JoinerValue.result m c, Cert.KernelIdeal.JoinerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Joiner.reference_is_joiner,
    (hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, preserves, algebraic⟩

end Cert.Proof

end
